-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x10 : Shape := ⟨2, ![4000000, 10]⟩
abbrev S10x10 : Shape := ⟨2, ![10, 10]⟩
abbrev S1x10 : Shape := ⟨2, ![1, 10]⟩
abbrev S10 : Shape := ⟨1, ![10]⟩
abbrev S_ : Shape := ⟨0, ![]⟩

class Facts : Prop where
  bcast_S_S4000000x10 : S_.BroadcastsInDim S4000000x10 (![] : Fin 0 → Fin S4000000x10.rank)
  reducesTo_S4000000x10_S_d0_1 : S4000000x10.ReducesTo [0, 1] S_
  h_S_ : 0 < S_.numel
  bcast_S_S10x10 : S_.BroadcastsInDim S10x10 (![] : Fin 0 → Fin S10x10.rank)
  reducesTo_S10x10_S_d0_1 : S10x10.ReducesTo [0, 1] S_
  bcast_S_S1x10 : S_.BroadcastsInDim S1x10 (![] : Fin 0 → Fin S1x10.rank)
  reducesTo_S1x10_S_d0_1 : S1x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg6 : FVec F S10 .f32) (main_v33 : IVec S_ 1) : IVec S_ 1 :=
  let main_cst_12 : FVec F S_ .f32 := constant S_ .f32 0x00000000#32
  let main_v34 : FVec F S10 .f32 := broadcastInDim S10 ![] bcast_S_S10 main_cst_12
  let main_v35 : IVec S10 1 := cmpf .oge main_arg6 main_v34
  let main_c_13 : IVec S_ 1 := constantI S_ 1 1#1
  let main_v36 : IVec S_ 1 := (fun x v => Host.reduce IntOp.andi x v reducesTo_S10_S_d0 h_S_) main_v35 main_c_13
  let main_v37 : IVec S_ 1 := andi main_v33 main_v36
  main_v37

def fn_part1 {F : FTy → Type} [FloatOps F] (main_arg4 : FVec F S10 .f32) (main_arg5 : FVec F S10 .f32) (main_arg6 : FVec F S10 .f32) (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_v24 : FVec F S10 .f32 := Host.absf main_arg5
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg6 main_v33

def fn {F : FTy → Type} [FloatOps F] (main_arg0 : FVec F S4000000x10 .f32) (main_arg1 : FVec F S10x10 .f32) (main_arg2 : FVec F S1x10 .f32) (main_arg3 : FVec F S10 .f32) (main_arg4 : FVec F S10 .f32) (main_arg5 : FVec F S10 .f32) (main_arg6 : FVec F S10 .f32) : IVec S_ 1 :=
  let main_v0 : FVec F S4000000x10 .f32 := Host.absf main_arg0
  let main_cst : FVec F S_ .f32 := constant S_ .f32 0x7F800000#32
  let main_v1 : FVec F S4000000x10 .f32 := broadcastInDim S4000000x10 ![] bcast_S_S4000000x10 main_cst
  let main_v2 : IVec S4000000x10 1 := cmpf .olt main_v0 main_v1
  let main_c : IVec S_ 1 := constantI S_ 1 1#1
  let main_v3 : IVec S_ 1 := (fun x v => Host.reduce IntOp.andi x v reducesTo_S4000000x10_S_d0_1 h_S_) main_v2 main_c
  let main_v4 : FVec F S10x10 .f32 := Host.absf main_arg1
  let main_cst_0 : FVec F S_ .f32 := constant S_ .f32 0x7F800000#32
  let main_v5 : FVec F S10x10 .f32 := broadcastInDim S10x10 ![] bcast_S_S10x10 main_cst_0
  let main_v6 : IVec S10x10 1 := cmpf .olt main_v4 main_v5
  let main_c_1 : IVec S_ 1 := constantI S_ 1 1#1
  let main_v7 : IVec S_ 1 := (fun x v => Host.reduce IntOp.andi x v reducesTo_S10x10_S_d0_1 h_S_) main_v6 main_c_1
  let main_v8 : IVec S_ 1 := andi main_v3 main_v7
  let main_v9 : FVec F S1x10 .f32 := Host.absf main_arg2
  let main_cst_2 : FVec F S_ .f32 := constant S_ .f32 0x7F800000#32
  let main_v10 : FVec F S1x10 .f32 := broadcastInDim S1x10 ![] bcast_S_S1x10 main_cst_2
  let main_v11 : IVec S1x10 1 := cmpf .olt main_v9 main_v10
  let main_c_3 : IVec S_ 1 := constantI S_ 1 1#1
  let main_v12 : IVec S_ 1 := (fun x v => Host.reduce IntOp.andi x v reducesTo_S1x10_S_d0_1 h_S_) main_v11 main_c_3
  let main_v13 : IVec S_ 1 := andi main_v8 main_v12
  let main_v14 : FVec F S10 .f32 := Host.absf main_arg3
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_arg4 main_arg5 main_arg6 main_v13 main_v16
-- ==== Kernel.lean ====
abbrev S4000000x10 : Shape := ⟨2, ![4000000, 10]⟩
abbrev S10x10 : Shape := ⟨2, ![10, 10]⟩
abbrev S1x10 : Shape := ⟨2, ![1, 10]⟩
abbrev S10 : Shape := ⟨1, ![10]⟩
abbrev S_ : Shape := ⟨0, ![]⟩
abbrev S64x64 : Shape := ⟨2, ![64, 64]⟩
abbrev S64x1x64x1 : Shape := ⟨4, ![64, 1, 64, 1]⟩
abbrev S1x10x1x10 : Shape := ⟨4, ![1, 10, 1, 10]⟩
abbrev S64x10x64x10 : Shape := ⟨4, ![64, 10, 64, 10]⟩
abbrev S640x640 : Shape := ⟨2, ![640, 640]⟩
abbrev S1x1x1x10 : Shape := ⟨4, ![1, 1, 1, 10]⟩
abbrev S1x1x64x10 : Shape := ⟨4, ![1, 1, 64, 10]⟩
abbrev S1x640 : Shape := ⟨2, ![1, 640]⟩
abbrev S4063232x10 : Shape := ⟨2, ![4063232, 10]⟩
abbrev S63488x640 : Shape := ⟨2, ![63488, 640]⟩
abbrev S2048x640 : Shape := ⟨2, ![2048, 640]⟩

abbrev nBuf : Space → Nat
  | .hbm => 45
  | .vmem => 6
  | .smem => 0
  | _ => 0

abbrev bufTy : (tb : Table) → Fin (tcTables nBuf tb) → BufTy
  | .hbm, ⟨0, _⟩ => ⟨S4000000x10, .f32⟩
  | .hbm, ⟨1, _⟩ => ⟨S10x10, .f32⟩
  | .hbm, ⟨2, _⟩ => ⟨S1x10, .f32⟩
  | .hbm, ⟨3, _⟩ => ⟨S10, .f32⟩
  | .hbm, ⟨4, _⟩ => ⟨S10, .f32⟩
  | .hbm, ⟨5, _⟩ => ⟨S10, .f32⟩
  | .hbm, ⟨6, _⟩ => ⟨S10, .f32⟩
  | .hbm, ⟨7, _⟩ => ⟨S_, .f32⟩
  | .hbm, ⟨8, _⟩ => ⟨S10, .f32⟩
  | .hbm, ⟨9, _⟩ => ⟨S10, .f32⟩
  | .hbm, ⟨10, _⟩ => ⟨S10, .f32⟩
  | .hbm, ⟨11, _⟩ => ⟨S10, .f32⟩
  | .hbm, ⟨12, _⟩ => ⟨S10, .f32⟩
  | .hbm, ⟨13, _⟩ => ⟨S10, .f32⟩
  | .hbm, ⟨14, _⟩ => ⟨S1x10, .f32⟩
  | .hbm, ⟨15, _⟩ => ⟨S10x10, .f32⟩
  | .hbm, ⟨16, _⟩ => ⟨S10x10, .f32⟩
  | .hbm, ⟨17, _⟩ => ⟨S1x10, .f32⟩
  | .hbm, ⟨18, _⟩ => ⟨S1x10, .f32⟩
  | .hbm, ⟨19, _⟩ => ⟨S1x10, .f32⟩
  | .hbm, ⟨20, _⟩ => ⟨S1x10, .f32⟩
  | .hbm, ⟨21, _⟩ => ⟨S64x64, .i32⟩
  | .hbm, ⟨22, _⟩ => ⟨S64x64, .i32⟩
  | .hbm, ⟨23, _⟩ => ⟨S_, .i32⟩
  | .hbm, ⟨24, _⟩ => ⟨S64x64, .i32⟩
  | .hbm, ⟨25, _⟩ => ⟨S64x64, .i32⟩
  | .hbm, ⟨26, _⟩ => ⟨S64x64, .i1⟩
  | .hbm, ⟨27, _⟩ => ⟨S64x64, .f32⟩
  | .hbm, ⟨28, _⟩ => ⟨S64x1x64x1, .f32⟩
  | .hbm, ⟨29, _⟩ => ⟨S1x10x1x10, .f32⟩
  | .hbm, ⟨30, _⟩ => ⟨S64x10x64x10, .f32⟩
  | .hbm, ⟨31, _⟩ => ⟨S64x10x64x10, .f32⟩
  | .hbm, ⟨32, _⟩ => ⟨S64x10x64x10, .f32⟩
  | .hbm, ⟨33, _⟩ => ⟨S640x640, .f32⟩
  | .hbm, ⟨34, _⟩ => ⟨S640x640, .bf16⟩
  | .hbm, ⟨35, _⟩ => ⟨S1x1x1x10, .f32⟩
  | .hbm, ⟨36, _⟩ => ⟨S1x1x64x10, .f32⟩
  | .hbm, ⟨37, _⟩ => ⟨S1x640, .f32⟩
  | .hbm, ⟨38, _⟩ => ⟨S_, .i32⟩
  | .hbm, ⟨39, _⟩ => ⟨S_, .f32⟩
  | .hbm, ⟨40, _⟩ => ⟨S4063232x10, .f32⟩
  | .hbm, ⟨41, _⟩ => ⟨S63488x640, .f32⟩
  | .hbm, ⟨42, _⟩ => ⟨S63488x640, .f32⟩
  | .hbm, ⟨43, _⟩ => ⟨S4063232x10, .f32⟩
  | .hbm, ⟨44, _⟩ => ⟨S4000000x10, .f32⟩
  | .local _ .vmem, ⟨0, _⟩ => ⟨S2048x640, .f32⟩
  | .local _ .vmem, ⟨1, _⟩ => ⟨S2048x640, .f32⟩
  | .local _ .vmem, ⟨2, _⟩ => ⟨S640x640, .bf16⟩
  | .local _ .vmem, ⟨3, _⟩ => ⟨S1x640, .f32⟩
  | .local _ .vmem, ⟨4, _⟩ => ⟨S2048x640, .f32⟩
  | .local _ .vmem, ⟨5, _⟩ => ⟨S2048x640, .f32⟩
  | _, _ => ⟨S4000000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_0 : Ref sig .tc := ⟨.hbm, 38, rfl⟩
abbrev main_call1_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S640x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S10 : S_.BroadcastsInDim S10 (![] : Fin 0 → Fin S10.rank)
  bcast_S10_S1x10_1 : S10.BroadcastsInDim S1x10 (![1] : Fin 1 → Fin S1x10.rank)
  bcast_S1x10_S10x10_0_1 : S1x10.BroadcastsInDim S10x10 (![0, 1] : Fin 2 → Fin S10x10.rank)
  bcast_S_S64x64 : S_.BroadcastsInDim S64x64 (![] : Fin 0 → Fin S64x64.rank)
  bcast_S64x64_S64x1x64x1_0_2 : S64x64.BroadcastsInDim S64x1x64x1 (![0, 2] : Fin 2 → Fin S64x1x64x1.rank)
  bcast_S10x10_S1x10x1x10_1_3 : S10x10.BroadcastsInDim S1x10x1x10 (![1, 3] : Fin 2 → Fin S1x10x1x10.rank)
  bcast_S64x1x64x1_S64x10x64x10_0_1_2_3 : S64x1x64x1.BroadcastsInDim S64x10x64x10 (![0, 1, 2, 3] : Fin 4 → Fin S64x10x64x10.rank)
  bcast_S1x10x1x10_S64x10x64x10_0_1_2_3 : S1x10x1x10.BroadcastsInDim S64x10x64x10 (![0, 1, 2, 3] : Fin 4 → Fin S64x10x64x10.rank)
  shapeCasts_S64x10x64x10_S640x640 : S64x10x64x10.ShapeCasts S640x640
  bitsLt_bf16_f32 : FTy.bits .bf16 < FTy.bits .f32
  shapeCasts_S1x10_S1x1x1x10 : S1x10.ShapeCasts S1x1x1x10
  bcast_S1x1x1x10_S1x1x64x10_0_1_2_3 : S1x1x1x10.BroadcastsInDim S1x1x64x10 (![0, 1, 2, 3] : Fin 4 → Fin S1x1x64x10.rank)
  shapeCasts_S1x1x64x10_S1x640 : S1x1x64x10.ShapeCasts S1x640
  pads_S4000000x10_S4063232x10_0632320_000 : S4000000x10.Pads (![0, 0] : Fin 2 → Nat) ![63232, 0] ![0, 0] S4063232x10
  h_S_ : 0 < S_.numel
  shapeCasts_S4063232x10_S63488x640 : S4063232x10.ShapeCasts S63488x640
  inb_S2048x640_S2048x640_0_0 : ∀ a, (![0, 0] : Fin 2 → Nat) a + S2048x640.size a ≤ S2048x640.size a
  h_S2048x640 : 0 < S2048x640.numel
  shapeCasts_S2048x640_S2048x640 : S2048x640.ShapeCasts S2048x640
  inb_S640x640_S640x640_0_0 : ∀ a, (![0, 0] : Fin 2 → Nat) a + S640x640.size a ≤ S640x640.size a
  h_S640x640 : 0 < S640x640.numel
  shapeCasts_S640x640_S640x640 : S640x640.ShapeCasts S640x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S2048x640 : S1x640.Broadcasts S2048x640
  shapeCasts_S63488x640_S4063232x10 : S63488x640.ShapeCasts S4063232x10
  slices_S4063232x10_S4000000x10_0_0 : S4063232x10.Slices ![0, 0] S4000000x10
  dot_S2048x640_S640x640_S2048x640_1_0_0_1_n_n_wf : DotDims.WF S2048x640 S640x640 S2048x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x640.size a ≤ S63488x640.size a
  hwx0_0 : ∀ i : grid0.Coords, EltTy.bits .f32 = 32 ∨ (Rect.block (s := S63488x640) S2048x640.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S640x640.size a ≤ S640x640.size a
  hwx0_1 : ∀ i : grid0.Coords, EltTy.bits .bf16 = 32 ∨ (Rect.block (s := S640x640) S640x640.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x640.size a ≤ S1x640.size a
  hwx0_2 : ∀ i : grid0.Coords, EltTy.bits .f32 = 32 ∨ (Rect.block (s := S1x640) S1x640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x640.size a ≤ S63488x640.size a
  hwx0_3 : ∀ i : grid0.Coords, EltTy.bits .f32 = 32 ∨ (Rect.block (s := S63488x640) S2048x640.size (cc0_transform_3 i) (hinb0_3 i)).WholeWords (EltTy.packing .f32)

variable [Facts₀]

def dot_S2048x640_S640x640_S2048x640_1_0_0_1_n_n : DotDims S2048x640 S640x640 S2048x640 where
  lhsContracting := [1]
  rhsContracting := [0]
  lhsNonContracting := [0]
  rhsNonContracting := [1]
  lhsBatch := []
  rhsBatch := []
  wf := dot_S2048x640_S640x640_S2048x640_1_0_0_1_n_n_wf

abbrev win0_0 : Pipeline.Window sig grid0 :=
  Pipeline.Window.ofSpec (Memref.whole main_v25) S2048x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S640x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S2048x640.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4000000x10 : Shape := ⟨2, ![4000000, 10]⟩
abbrev S10x10 : Shape := ⟨2, ![10, 10]⟩
abbrev S1x10 : Shape := ⟨2, ![1, 10]⟩
abbrev S10 : Shape := ⟨1, ![10]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4000000x10, .f32⟩
  | .hbm, ⟨1, _⟩ => ⟨S10x10, .f32⟩
  | .hbm, ⟨2, _⟩ => ⟨S1x10, .f32⟩
  | .hbm, ⟨3, _⟩ => ⟨S10, .f32⟩
  | .hbm, ⟨4, _⟩ => ⟨S10, .f32⟩
  | .hbm, ⟨5, _⟩ => ⟨S10, .f32⟩
  | .hbm, ⟨6, _⟩ => ⟨S10, .f32⟩
  | .hbm, ⟨7, _⟩ => ⟨S4000000x10, .f32⟩
  | .hbm, ⟨8, _⟩ => ⟨S4000000x10, .f32⟩
  | .hbm, ⟨9, _⟩ => ⟨S4000000x10, .f32⟩
  | .hbm, ⟨10, _⟩ => ⟨S_, .f32⟩
  | .hbm, ⟨11, _⟩ => ⟨S10, .f32⟩
  | .hbm, ⟨12, _⟩ => ⟨S10, .f32⟩
  | .hbm, ⟨13, _⟩ => ⟨S10, .f32⟩
  | .hbm, ⟨14, _⟩ => ⟨S10, .f32⟩
  | .hbm, ⟨15, _⟩ => ⟨S1x10, .f32⟩
  | .hbm, ⟨16, _⟩ => ⟨S4000000x10, .f32⟩
  | .hbm, ⟨17, _⟩ => ⟨S4000000x10, .f32⟩
  | .hbm, ⟨18, _⟩ => ⟨S10, .f32⟩
  | .hbm, ⟨19, _⟩ => ⟨S10, .f32⟩
  | .hbm, ⟨20, _⟩ => ⟨S1x10, .f32⟩
  | .hbm, ⟨21, _⟩ => ⟨S4000000x10, .f32⟩
  | .hbm, ⟨22, _⟩ => ⟨S4000000x10, .f32⟩
  | _, _ => ⟨S4000000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S1x10_S4000000x10_0_1 : S1x10.BroadcastsInDim S4000000x10 (![0, 1] : Fin 2 → Fin S4000000x10.rank)
  bcast_S_S10 : S_.BroadcastsInDim S10 (![] : Fin 0 → Fin S10.rank)
  bcast_S10_S1x10_1 : S10.BroadcastsInDim S1x10 (![1] : Fin 1 → Fin S1x10.rank)
  dot_S4000000x10_S10x10_S4000000x10_1_0_0_1_n_n_wf : DotDims.WF S4000000x10 S10x10 S4000000x10 [1] [0] [0] [1] [] []

variable [Facts₀]

def dot_S4000000x10_S10x10_S4000000x10_1_0_0_1_n_n : DotDims S4000000x10 S10x10 S4000000x10 where
  lhsContracting := [1]
  rhsContracting := [0]
  lhsNonContracting := [0]
  rhsNonContracting := [1]
  lhsBatch := []
  rhsBatch := []
  wf := dot_S4000000x10_S10x10_S4000000x10_1_0_0_1_n_n_wf

class Facts : Prop extends Facts₀ where

variable [Facts]
-- ==== Proof.Body.lean ====
/-
  What the kernel body stores, at an index (at the ideal instance): the body multiplies its 2048 x 640 block by the whole
  640 x 640 matrix into a zero accumulator and adds the 1 x 640 row to every row of the product, so entry (p, q) of what
  it stores is  sum_k block[p, k] * matrix[k, q] + row[0, q].  The casts between float formats are the identity on
  extended reals and the shape casts are between equal shapes.
-/
import proofs.«173768_j87522843559166_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.ValueIdx

namespace Cert.KernelIdeal.Hand

open Cert.KernelIdeal Cert.KernelIdeal.Facts₀ Cert.KernelIdeal.Facts

/-- The left operand of the product at output index i and contraction index q: row i 0. -/
theorem dot_lhs_0 (i : S2048x640.Idx) (q : dot_S2048x640_S640x640_S2048x640_1_0_0_1_n_n.contr.Idx) :
    (dot_S2048x640_S640x640_S2048x640_1_0_0_1_n_n.lhsIdx i q 0).val = (i 0).val := by
  unfold DotDims.lhsIdx
  rw [dif_neg (show ¬(0 : Fin S2048x640.rank) ∈ dot_S2048x640_S640x640_S2048x640_1_0_0_1_n_n.lhsBatch by decide),
    dif_pos (show (0 : Fin S2048x640.rank) ∈ dot_S2048x640_S640x640_S2048x640_1_0_0_1_n_n.lhsNonContracting by decide)]
  rfl

/-- The right operand at output index i and contraction index q: column i 1. -/
theorem dot_rhs_1 (i : S2048x640.Idx) (q : dot_S2048x640_S640x640_S2048x640_1_0_0_1_n_n.contr.Idx) :
    (dot_S2048x640_S640x640_S2048x640_1_0_0_1_n_n.rhsIdx i q 1).val = (i 1).val := by
  unfold DotDims.rhsIdx
  rw [dif_neg (show ¬(1 : Fin S640x640.rank) ∈ dot_S2048x640_S640x640_S2048x640_1_0_0_1_n_n.rhsBatch by decide),
    dif_pos (show (1 : Fin S640x640.rank) ∈ dot_S2048x640_S640x640_S2048x640_1_0_0_1_n_n.rhsNonContracting by decide)]
  rfl

/-- The product into a zero accumulator, at (p, q): the sum over the 640 contracted positions. -/
theorem matmul_at (a : FVec Ideal S2048x640 .bf16) (w : FVec Ideal S640x640 .bf16) (p : Fin 2048) (q : Fin 640) :
    matmul dot_S2048x640_S640x640_S2048x640_1_0_0_1_n_n none a w (constant S2048x640 .f32 0x00000000#32) (ix2 p q)
      = ∑ k : Fin 640, a (ix2 p k) * w (ix2 k q) := by
  simp only [matmul]
  rw [Ideal.matmul_constant_zero_apply, ← Equiv.sum_comp (contrEquiv1 dot_S2048x640_S640x640_S2048x640_1_0_0_1_n_n 640 rfl rfl).symm]
  refine Finset.sum_congr rfl fun k _ => ?_
  have hk := contrEquiv1_symm_val dot_S2048x640_S640x640_S2048x640_1_0_0_1_n_n 640 rfl rfl k
  have el : dot_S2048x640_S640x640_S2048x640_1_0_0_1_n_n.lhsIdx (ix2 p q)
      ((contrEquiv1 dot_S2048x640_S640x640_S2048x640_1_0_0_1_n_n 640 rfl rfl).symm k) = ix2 p k := funext fun a => Fin.ext (by
    match a with
    | ⟨0, _⟩ => exact dot_lhs_0 _ _
    | ⟨1, _⟩ => exact (dot_S2048x640_S640x640_S2048x640_1_0_0_1_n_n.lhsIdx_val_of_single rfl _ _).trans hk)
  have er : dot_S2048x640_S640x640_S2048x640_1_0_0_1_n_n.rhsIdx (ix2 p q)
      ((contrEquiv1 dot_S2048x640_S640x640_S2048x640_1_0_0_1_n_n 640 rfl rfl).symm k) = ix2 k q := funext fun a => Fin.ext (by
    match a with
    | ⟨0, _⟩ => exact (dot_S2048x640_S640x640_S2048x640_1_0_0_1_n_n.rhsIdx_val_of_single rfl _ _).trans hk
    | ⟨1, _⟩ => exact dot_rhs_1 _ _)
  rw [el, er]

/-- What the body stores, at (p, q). -/
theorem pay_apply (x0 : Vec Ideal S2048x640 .f32) (x1 : Vec Ideal S640x640 .bf16) (x2 : Vec Ideal S1x640 .f32)
    (p : Fin 2048) (q : Fin 640) :
    Gen.k0_pay1 x0 x1 x2 (ix2 p q) = (∑ k : Fin 640, (x0 (ix2 p k) : EReal) * x1 (ix2 k q)) + x2 (ix2 0 q) := by
  unfold Gen.k0_pay1
  simp only [shapeCast_self]
  rw [addf_apply, matmul_at]
  refine congrArg ((∑ k : Fin 640, (x0 (ix2 p k) : EReal) * x1 (ix2 k q)) + ·) ?_
  exact broadcastTo_apply _ _ (ix2 p q) (ix2 0 q) (fun a => match a with
    | ⟨0, _⟩ => rfl
    | ⟨1, _⟩ => rfl)

end Cert.KernelIdeal.Hand

end
-- ==== Proof.Blocks.lean ====
/-
  From the blocks to the array: what the region leaves in its result array.

  The grid has 31 points; point t works on rows 2048 t .. 2048 t + 2047 of the packed batch and of the result, with the
  whole 640 x 640 matrix and the whole bias row at every point. What point t writes back is therefore block t of ONE
  function of the three operand arrays as the region finds them,

      regionOut A B C [r, c] = sum_k A[r, k] * B[k, c] + C[0, c],

  and the 31 blocks tile the 63488 rows (row r lies in the block of point r / 2048), so the result array ends holding
  that function.
-/
import proofs.«173768_j87522843559166_2_alg».proof.Proof.Gen.KernelIdeal.Frame
import proofs.«173768_j87522843559166_2_alg».proof.Proof.Body
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Facts₀ Cert.KernelIdeal.Facts

/-- The matrix product of the packed batch with the block-diagonal weight, plus the bias row on every row. -/
def regionOut (A : S63488x640.Idx → EReal) (B : S640x640.Idx → EReal) (C : S1x640.Idx → EReal) : S63488x640.Idx → EReal :=
  fun i => (∑ k : Fin 640, A (ix2 (i 0) k) * B (ix2 k (i 1))) + C (ix2 0 (i 1))

/-- What the body stores from blocks that are rows of A, all of B and all of C is the same rows of regionOut. -/
theorem pay_block (X0 : Vec Ideal S2048x640 .f32) (X1 : Vec Ideal S640x640 .bf16) (X2 : Vec Ideal S1x640 .f32)
    (A : S63488x640.Idx → EReal) (B : S640x640.Idx → EReal) (C : S1x640.Idx → EReal) (y : S2048x640.Idx) (i : S63488x640.Idx)
    (h0 : ∀ k : Fin 640, X0 (ix2 (y 0) k) = A (ix2 (i 0) k))
    (h1 : ∀ k : Fin 640, X1 (ix2 k (y 1)) = B (ix2 k (i 1)))
    (h2 : X2 (ix2 0 (y 1)) = C (ix2 0 (i 1))) :
    Gen.k0_pay1 X0 X1 X2 y = regionOut A B C i := by
  refine (congrArg (Gen.k0_pay1 X0 X1 X2) (eq_ix2 y)).trans ((pay_apply X0 X1 X2 (y 0) (y 1)).trans ?_)
  unfold regionOut
  simp only [h0, h1, h2]

theorem hz : (![0, 0] : Fin 2 → Nat) = fun _ => 0 := funext fun a => by fin_cases a <;> rfl

/-- The printed index maps over the 31 points: windows 0 and 3 move with the point along the rows; windows 1 and 2 stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (m : (ℓ : Loc nD τ sig) → Buf (Elt Ideal) ℓ)

/-- Window 0's block at point t is rows 2048 t .. of the packed batch. -/
theorem iblk0_apply (c : Dev nD) (t : Fin cfg0.N) (p : Fin 2048) (k : Fin 640) (r : Fin 63488) (hr : r.val = t.val * 2048 + p.val) :
    (Gen.iblk m c 0 t : Vec Ideal S2048x640 .f32) (ix2 p k) = (Gen.V m c main_v25 : S63488x640.Idx → EReal) (ix2 r k) := by
  obtain ⟨e0, e1, -, -, -, -, -, -⟩ := idx_facts t
  unfold Gen.iblk
  rw [View.read_apply]
  show Gen.V m c main_v25 _ = Gen.V m c main_v25 _
  congr 1
  funext a
  apply Fin.ext
  match a with
  | ⟨0, _⟩ => show win0_0.index t (0 : Fin 2) * 2048 + 1 * p.val = r.val; rw [e0, hr]; omega
  | ⟨1, _⟩ => show win0_0.index t (1 : Fin 2) * 640 + 1 * k.val = k.val; rw [e1]; omega

/-- Window 1's block at every point is the whole matrix. -/
theorem iblk1_apply (c : Dev nD) (t : Fin cfg0.N) (k q : Fin 640) :
    (Gen.iblk m c 1 t : Vec Ideal S640x640 .bf16) (ix2 k q) = (Gen.V m c main_v20 : S640x640.Idx → EReal) (ix2 k q) := by
  obtain ⟨-, -, e2, e3, -, -, -, -⟩ := idx_facts t
  unfold Gen.iblk
  rw [View.read_apply]
  show Gen.V m c main_v20 _ = Gen.V m c main_v20 _
  congr 1
  funext a
  apply Fin.ext
  match a with
  | ⟨0, _⟩ => show win0_1.index t (0 : Fin 2) * 640 + 1 * k.val = k.val; rw [e2]; omega
  | ⟨1, _⟩ => show win0_1.index t (1 : Fin 2) * 640 + 1 * q.val = q.val; rw [e3]; omega

/-- Window 2's block at every point is the whole bias row. -/
theorem iblk2_apply (c : Dev nD) (t : Fin cfg0.N) (q : Fin 640) :
    (Gen.iblk m c 2 t : Vec Ideal S1x640 .f32) (ix2 0 q) = (Gen.V m c main_v23 : S1x640.Idx → EReal) (ix2 0 q) := by
  obtain ⟨-, -, -, -, e4, e5, -, -⟩ := idx_facts t
  unfold Gen.iblk
  rw [View.read_apply]
  show Gen.V m c main_v23 _ = Gen.V m c main_v23 _
  congr 1
  funext a
  apply Fin.ext
  match a with
  | ⟨0, _⟩ => show win0_2.index t (0 : Fin 2) * 1 + 1 * 0 = 0; rw [e4]
  | ⟨1, _⟩ => show win0_2.index t (1 : Fin 2) * 640 + 1 * q.val = q.val; rw [e5]; omega

/-- What point t writes back is block t of regionOut of the operand arrays as the region finds them. -/
theorem flushed_eq (c : Dev nD) (t : Fin cfg0.N) :
    (Gen.dats m 0 c).flushed 3 t = ((cfg0.win 3).blk t).view.read (Elt Ideal)
      (regionOut (Gen.V m c main_v25) (Gen.V m c main_v20) (Gen.V m c main_v23)) := by
  show (cfg0.win 3).cut (grid0.coords t) ((Gen.dats m 0 c).after 3 t) = _
  rw [Gen.after0_3]
  unfold Gen.out0_3
  rw [View.canon_unit_zero hz]
  simp only [View.ld_unit_zero (S := S2048x640) hz, View.ld_unit_zero (S := S640x640) hz, View.ld_unit_zero (S := S1x640) hz]
  obtain ⟨-, -, -, -, -, -, e6, e7⟩ := idx_facts t
  funext y
  show Gen.k0_pay1 (Gen.iblk m c 0 t) (Gen.iblk m c 1 t) (Gen.iblk m c 2 t) y
    = regionOut (Gen.V m c main_v25) (Gen.V m c main_v20) (Gen.V m c main_v23) (((cfg0.win 3).blk t).view.emb y)
  have hr0 : ((((cfg0.win 3).blk t).view.emb y) 0).val = t.val * 2048 + (y 0).val := by
    show win0_3.index t (0 : Fin 2) * 2048 + 1 * (y 0).val = _; rw [e6]; omega
  have hr1 : ((((cfg0.win 3).blk t).view.emb y) 1).val = (y 1).val := by
    show win0_3.index t (1 : Fin 2) * 640 + 1 * (y 1).val = _; rw [e7]; omega
  have hq : (((cfg0.win 3).blk t).view.emb y) 1 = y 1 := Fin.ext hr1
  refine pay_block (Gen.iblk m c 0 t) (Gen.iblk m c 1 t) (Gen.iblk m c 2 t) (Gen.V m c main_v25) (Gen.V m c main_v20)
    (Gen.V m c main_v23) y (((cfg0.win 3).blk t).view.emb y) (fun k => ?_) (fun k => ?_) ?_
  · exact iblk0_apply m c t (y 0) k _ hr0
  · rw [hq]; exact iblk1_apply m c t k (y 1)
  · rw [hq]; exact iblk2_apply m c t (y 1)

/-- An index of the result array is in point t's block when each coordinate is in the block's range. -/
theorem mem_blk (t : Fin cfg0.N) (i : S63488x640.Idx) :
    i ∈ ((cfg0.win 3).blk t).view.set ↔ ∀ a : Fin 2, win0_3.index t a * S2048x640.size a ≤ (i a).val
      ∧ (i a).val < win0_3.index t a * S2048x640.size a + S2048x640.size a := by
  show i ∈ ((View.whole main_v26).slice (win0_3.rect t)).set ↔ _
  rw [View.set_slice_whole, Rect.mem_set_unit]
  exact Iff.rfl

/-- Every index of the result array is in the block of the point its row falls in. -/
theorem cover (i : S63488x640.Idx) : ∃ t : Fin cfg0.N, (cfg0.win 3).flush t = true ∧ i ∈ ((cfg0.win 3).blk t).view.set := by
  have hi0 : (i 0).val < 63488 := (i 0).isLt
  have hi1 : (i 1).val < 640 := (i 1).isLt
  have hN : cfg0.N = 31 := Gen.N_0
  have hlt : (i 0).val / 2048 < cfg0.N := by rw [hN]; omega
  obtain ⟨-, -, -, -, -, -, e6, e7⟩ := idx_facts ⟨(i 0).val / 2048, hlt⟩
  refine ⟨⟨(i 0).val / 2048, hlt⟩, Gen.flush0_3 _, ?_⟩
  rw [mem_blk]
  intro a
  match a with
  | ⟨0, _⟩ =>
    show win0_3.index ⟨(i 0).val / 2048, hlt⟩ (0 : Fin 2) * 2048 ≤ (i 0).val
      ∧ (i 0).val < win0_3.index ⟨(i 0).val / 2048, hlt⟩ (0 : Fin 2) * 2048 + 2048
    rw [e6]
    show (i 0).val / 2048 * 2048 ≤ (i 0).val ∧ (i 0).val < (i 0).val / 2048 * 2048 + 2048
    omega
  | ⟨1, _⟩ =>
    show win0_3.index ⟨(i 0).val / 2048, hlt⟩ (1 : Fin 2) * 640 ≤ (i 1).val
      ∧ (i 1).val < win0_3.index ⟨(i 0).val / 2048, hlt⟩ (1 : Fin 2) * 640 + 640
    rw [e7]
    omega

/-- The result array after the region. -/
theorem final (c : Dev nD) : (Gen.dats m 0 c).arrAt 3 cfg0.N
    = regionOut (Gen.V m c main_v25) (Gen.V m c main_v20) (Gen.V m c main_v23) :=
  (Gen.dats m 0 c).arrAt_eq_of_cover 3 _ (fun t _ => flushed_eq m c t) cover

end Cert.KernelIdeal.Hand

end
-- ==== Proof.HostPrefix.lean ====
/-
  What the three operands of the matrix kernel hold when the region is entered: the host lines before it, as pure
  functions of the argument arrays.

  * scale = gamma * rsqrt (var + eps) (one factor per output feature), shift = beta - mean * scale;
  * the folded weight w2[i, j] = w[i, j] * scale[j] and the folded bias b2[0, j] = b[0, j] * scale[j] + shift[j];
  * the block-diagonal weight: the Kronecker product of the 64 x 64 identity (an iota compared with an iota, converted
    to a float) with w2, laid out as a 640 x 640 matrix;
  * the bias repeated 64 times along a row of 640;
  * the batch padded with zero rows up to 4063232 rows and re-laid row-major as 63488 rows of 640 (64 samples a row).
-/
import proofs.«173768_j87522843559166_2_alg».proof.Proof.Gen.KernelIdeal.Frame
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Facts₀ Cert.KernelIdeal.Facts

variable {F : FTy → Type} [FloatOps F]

/-- gamma * rsqrt (var + eps). -/
def scale (x3 x6 : FVec F S10 .f32) : FVec F S10 .f32 :=
  mulf x3 (Host.rsqrt (addf x6 (broadcastInDim S10 ![] bcast_S_S10 (constant S_ .f32 0x3727C5AC#32))))

/-- beta - mean * scale. -/
def shift (x3 x4 x5 x6 : FVec F S10 .f32) : FVec F S10 .f32 :=
  subf x4 (mulf x5 (scale x3 x6))

/-- The weight with column j scaled by scale[j]. -/
def weight2 (x1 : FVec F S10x10 .f32) (x3 x6 : FVec F S10 .f32) : FVec F S10x10 .f32 :=
  mulf x1 (broadcastInDim S10x10 ![0, 1] bcast_S1x10_S10x10_0_1 (broadcastInDim S1x10 ![1] bcast_S10_S1x10_1 (scale x3 x6)))

/-- The bias scaled and shifted. -/
def bias2 (x2 : FVec F S1x10 .f32) (x3 x4 x5 x6 : FVec F S10 .f32) : FVec F S1x10 .f32 :=
  addf (mulf x2 (broadcastInDim S1x10 ![1] bcast_S10_S1x10_1 (scale x3 x6)))
    (broadcastInDim S1x10 ![1] bcast_S10_S1x10_1 (shift x3 x4 x5 x6))

/-- The 64 x 64 identity matrix as floats: row number equal to column number, converted. -/
def eye : FVec F S64x64 .f32 :=
  uitofp .f32 (cmpi .eq (addi (iotaInDim S64x64 32 0) (broadcastInDim S64x64 ![] bcast_S_S64x64 (constantI S_ 32 0#32)))
    (iotaInDim S64x64 32 1))

/-- The Kronecker product of the identity with the folded weight, before it is laid out as a matrix. -/
def kron4 (x1 : FVec F S10x10 .f32) (x3 x6 : FVec F S10 .f32) : FVec F S64x10x64x10 .f32 :=
  mulf (broadcastInDim S64x10x64x10 ![0, 1, 2, 3] bcast_S64x1x64x1_S64x10x64x10_0_1_2_3
      (broadcastInDim S64x1x64x1 ![0, 2] bcast_S64x64_S64x1x64x1_0_2 eye))
    (broadcastInDim S64x10x64x10 ![0, 1, 2, 3] bcast_S1x10x1x10_S64x10x64x10_0_1_2_3
      (broadcastInDim S1x10x1x10 ![1, 3] bcast_S10x10_S1x10x1x10_1_3 (weight2 x1 x3 x6)))

/-- The block-diagonal weight the kernel multiplies by. -/
def weightBig (x1 : FVec F S10x10 .f32) (x3 x6 : FVec F S10 .f32) : FVec F S640x640 .bf16 :=
  truncf .bf16 (shapeCast S640x640 (kron4 x1 x3 x6) shapeCasts_S64x10x64x10_S640x640) bitsLt_bf16_f32

/-- The folded bias repeated along a row of 640. -/
def biasBig (x2 : FVec F S1x10 .f32) (x3 x4 x5 x6 : FVec F S10 .f32) : FVec F S1x640 .f32 :=
  shapeCast S1x640 (broadcastInDim S1x1x64x10 ![0, 1, 2, 3] bcast_S1x1x1x10_S1x1x64x10_0_1_2_3
    (shapeCast S1x1x1x10 (bias2 x2 x3 x4 x5 x6) shapeCasts_S1x10_S1x1x1x10)) shapeCasts_S1x1x64x10_S1x640

/-- The batch padded with zero rows and re-laid as rows of 64 samples. -/
def packed (x0 : FVec F S4000000x10 .f32) : FVec F S63488x640 .f32 :=
  shapeCast S63488x640 (pad S4063232x10 ![0, 0] ![63232, 0] ![0, 0] x0 (sitofp .f32 (constantI S_ 32 0#32))
    pads_S4000000x10_S4063232x10_0632320_000 h_S_) shapeCasts_S4063232x10_S63488x640

variable (m : (ℓ : Loc nD τ sig) → Buf (Elt F) ℓ)

set_option maxHeartbeats 4000000 in
/-- Window 0's array at the region's entry: the packed batch. -/
theorem V_packed (c : Dev nD) :
    (Gen.V m c main_v25 : S63488x640.Idx → Elt F .f32) = packed (m ((c : Thread nD τ).loc main_arg0)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

set_option maxHeartbeats 4000000 in
/-- Window 1's array at the region's entry: the block-diagonal weight. -/
theorem V_weightBig (c : Dev nD) :
    (Gen.V m c main_v20 : S640x640.Idx → Elt F .bf16) = weightBig (m ((c : Thread nD τ).loc main_arg1))
      (m ((c : Thread nD τ).loc main_arg3)) (m ((c : Thread nD τ).loc main_arg6)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

set_option maxHeartbeats 4000000 in
/-- Window 2's array at the region's entry: the repeated bias. -/
theorem V_biasBig (c : Dev nD) :
    (Gen.V m c main_v23 : S1x640.Idx → Elt F .f32) = biasBig (m ((c : Thread nD τ).loc main_arg2))
      (m ((c : Thread nD τ).loc main_arg3)) (m ((c : Thread nD τ).loc main_arg4)) (m ((c : Thread nD τ).loc main_arg5))
      (m ((c : Thread nD τ).loc main_arg6)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

end Cert.KernelIdeal.Hand

end
-- ==== Proof.LibSums.lean ====
/-
  Two re-indexings of finite sums, over any commutative monoid.

  * A sum over the indices of a rank-4 shape whose first two coordinates are fixed (the indices a reduction over
    the two trailing axes sends to one result index) is the double sum over the two trailing coordinates.
  * A sum over `Fin N` with `N = T * R` is the sum over `T` tiles of the sum over the `R` positions inside a tile,
    position `r` of tile `t` being `R * t + r`.
-/
import Idealize.ShloMosaic.Lib.ValueIdx
import Idealize.ShloMosaic.PureOps.Reduce

noncomputable section

open scoped BigOperators

namespace Cert.LibSums

open Idealize.ShloMosaic Idealize.ShloMosaic.ValueIdx

/-- Position `r` of tile `t` lies below `T * R`. -/
theorem tile_lt {T R N : Nat} (hN : T * R = N) (t : Fin T) (r : Fin R) : R * t.val + r.val < N := by
  have h1 : R * t.val + r.val < R * (t.val + 1) := by rw [Nat.mul_succ]; exact Nat.add_lt_add_left r.isLt _
  have h2 : R * (t.val + 1) ≤ R * T := Nat.mul_le_mul_left R (Nat.succ_le_of_lt t.isLt)
  rw [← hN, Nat.mul_comm T R]; exact Nat.lt_of_lt_of_le h1 h2

/-- A sum over `N = T * R` positions, tile by tile. -/
theorem sum_by_tiles {M : Type*} [AddCommMonoid M] {T R N : Nat} (hN : T * R = N) (f : Fin N → M) :
    ∑ h : Fin N, f h = ∑ t : Fin T, ∑ r : Fin R, f ⟨R * t.val + r.val, tile_lt hN t r⟩ := by
  subst hN
  rw [← Equiv.sum_comp (finProdFinEquiv (m := T) (n := R)) f, Fintype.sum_prod_type]
  refine Finset.sum_congr rfl fun t _ => Finset.sum_congr rfl fun r _ => congrArg f (Fin.ext ?_)
  show r.val + R * t.val = R * t.val + r.val
  omega

/-- The indices of a rank-4 shape that a reduction over axes 2 and 3 sends to `(p, q)`, summed, are the two
    trailing coordinates, summed. -/
theorem sum_filter_drop_last2 {M : Type*} [AddCommMonoid M] {n0 n1 A B : Nat}
    (h : (⟨4, ![n0, n1, A, B]⟩ : Shape).Reduces [2, 3] ⟨2, ![n0, n1]⟩)
    (x : (⟨4, ![n0, n1, A, B]⟩ : Shape).Idx → M) (p : Fin n0) (q : Fin n1) :
    ∑ i ∈ Finset.univ.filter (fun i => h.drop i = ix2 p q), x i = ∑ a : Fin A, ∑ b : Fin B, x (ix4 p q a b) := by
  have hd0 : ∀ i, ((h.drop i 0 : Fin n0) : Nat) = ((i 0 : Fin n0) : Nat) := fun i => rfl
  have hd1 : ∀ i, ((h.drop i 1 : Fin n1) : Nat) = ((i 1 : Fin n1) : Nat) := fun i => rfl
  rw [← Finset.sum_product']
  refine Finset.sum_nbij' (fun i => ((i 2 : Fin A), (i 3 : Fin B))) (fun ab => ix4 p q ab.1 ab.2) ?_ ?_ ?_ ?_ ?_
  · intro i _; exact Finset.mem_product.2 ⟨Finset.mem_univ _, Finset.mem_univ _⟩
  · intro ab _
    refine Finset.mem_filter.2 ⟨Finset.mem_univ _, funext fun b => Fin.ext ?_⟩
    match b with
    | ⟨0, _⟩ => exact hd0 _
    | ⟨1, _⟩ => exact hd1 _
  · intro i hi
    have hj := (Finset.mem_filter.1 hi).2
    have e0 : (i 0 : Fin n0) = p := Fin.ext ((hd0 i).symm.trans (congrArg (fun j : (⟨2, ![n0, n1]⟩ : Shape).Idx => ((j 0 : Fin n0) : Nat)) hj))
    have e1 : (i 1 : Fin n1) = q := Fin.ext ((hd1 i).symm.trans (congrArg (fun j : (⟨2, ![n0, n1]⟩ : Shape).Idx => ((j 1 : Fin n1) : Nat)) hj))
    show ix4 p q (i 2) (i 3) = i
    rw [← e0, ← e1]; exact (eq_ix4 i).symm
  · intro ab _; rfl
  · intro i hi
    have hj := (Finset.mem_filter.1 hi).2
    have e0 : (i 0 : Fin n0) = p := Fin.ext ((hd0 i).symm.trans (congrArg (fun j : (⟨2, ![n0, n1]⟩ : Shape).Idx => ((j 0 : Fin n0) : Nat)) hj))
    have e1 : (i 1 : Fin n1) = q := Fin.ext ((hd1 i).symm.trans (congrArg (fun j : (⟨2, ![n0, n1]⟩ : Shape).Idx => ((j 1 : Fin n1) : Nat)) hj))
    show x i = x (ix4 p q (i 2) (i 3))
    rw [← e0, ← e1]; exact congrArg x (eq_ix4 i)

end Cert.LibSums

end
-- ==== Proof.Law.lean ====
/-
  The two facts about sums of extended reals that join the kernel's value to the reference's.

  * A scale factor folded into the weights and the bias: for REAL entries x i, w i, b and a REAL factor v,
        sum_i x_i * (w_i * v) + (b * v + S)  =  (sum_i x_i * w_i + b) * v + S
    for any extended real S. Multiplication by v distributes over the sum because every term is a real number; on the
    extended reals it does not in general (top + bot), which is why the entries are asked to be finite.
  * A block-diagonal contraction: a sum over T * R positions whose terms vanish outside tile g is the sum over
    the R positions of tile g.
-/
import Idealize.ShloMosaic.PureOps.Ideal
import proofs.«173768_j87522843559166_2_alg».proof.Proof.LibSums

noncomputable section

open scoped BigOperators

namespace Cert.Law

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Scaling the weights and the bias by a real factor v scales the affine form: all entries real, S anything. -/
theorem scale_fold {ι : Type*} (s : Finset ι) (x w : ι → ℝ) (b v : ℝ) (S : EReal) :
    (∑ i ∈ s, (x i : EReal) * ((w i : EReal) * (v : EReal))) + ((b : EReal) * (v : EReal) + S)
      = ((∑ i ∈ s, (x i : EReal) * (w i : EReal)) + (b : EReal)) * (v : EReal) + S := by
  have h1 : (∑ i ∈ s, (x i : EReal) * ((w i : EReal) * (v : EReal))) = ((∑ i ∈ s, x i * (w i * v) : ℝ) : EReal) := by
    rw [coe_sum]; exact Finset.sum_congr rfl fun i _ => by rw [EReal.coe_mul, EReal.coe_mul]
  have h2 : (∑ i ∈ s, (x i : EReal) * (w i : EReal)) = ((∑ i ∈ s, x i * w i : ℝ) : EReal) := by
    rw [coe_sum]; exact Finset.sum_congr rfl fun i _ => by rw [EReal.coe_mul]
  rw [h1, h2, ← add_assoc, ← EReal.coe_mul, ← EReal.coe_add, ← EReal.coe_add, ← EReal.coe_mul]
  congr 2
  rw [add_mul, Finset.sum_mul]
  congr 1
  exact Finset.sum_congr rfl fun i _ => by ring

/-- A sum over T * R positions whose terms vanish outside tile g is the sum over tile g. -/
theorem sum_one_tile {M : Type*} [AddCommMonoid M] {T R N : Nat} (hN : T * R = N) (f : Fin N → M) (g : Fin T)
    (hz : ∀ (t : Fin T) (r : Fin R), t ≠ g → f ⟨R * t.val + r.val, Cert.LibSums.tile_lt hN t r⟩ = 0) :
    ∑ h : Fin N, f h = ∑ r : Fin R, f ⟨R * g.val + r.val, Cert.LibSums.tile_lt hN g r⟩ := by
  rw [Cert.LibSums.sum_by_tiles hN f, Finset.sum_eq_single g]
  · intro t _ ht; exact Finset.sum_eq_zero fun r _ => hz t r ht
  · intro h; exact absurd (Finset.mem_univ g) h

end Cert.Law

end
-- ==== Proof.Spec.lean ====
/-
  The layer both programs compute, as ONE function of the argument arrays, index by index:

      out[b, j] = (sum_k x[b, k] * w[k, j] + bias[0, j]) * s[j] + (beta[j] - mean[j] * s[j]),
      s[j] = gamma[j] * rsqrt (var[j] + eps)

  (a dense layer followed by batch normalisation with the moving statistics), and the form the kernel evaluates, with
  s[j] folded into the weights and the bias:

      sum_k x[b, k] * (1 * (w[k, j] * s[j])) + (bias[0, j] * s[j] + (beta[j] - mean[j] * s[j])).

  The two agree when the entries are real numbers and s[j] is a real number, which it is when gamma[j] is real and
  var[j] is a real number that is not negative: then var[j] + eps is positive and its inverse square root is real.
-/
import Idealize.ShloMosaic.PureOps.Ideal
import Idealize.ShloMosaic.PureOps.Ideal.Laws
import Idealize.ShloMosaic.Lib.ValueIdx
import proofs.«173768_j87522843559166_2_alg».proof.Proof.Law

noncomputable section

open scoped BigOperators
open Idealize.ShloMosaic Idealize.ShloMosaic.ValueIdx

namespace Cert.Spec

/-- gamma * rsqrt (var + eps), eps the float nearest 1e-5. -/
def invStd (g v : EReal) : EReal := g * Ideal.rsqrt (v + Ideal.ofBits .f32 0x3727C5AC#32)

/-- The float nearest 1e-5 is a positive real number. -/
theorem eps_pos : ∃ e : ℝ, 0 < e ∧ Ideal.ofBits .f32 0x3727C5AC#32 = (e : EReal) := by
  refine ⟨(10995116 : ℝ) * (2 : ℝ) ^ (-40 : Int), by positivity, ?_⟩
  simp [Ideal.ofBits, Ideal.ieee]

/-- On real gamma and a real variance that is not negative the scale is a real number. -/
theorem invStd_real (g v : EReal) (hg : ∃ r : ℝ, g = (r : EReal)) (hv : ∃ r : ℝ, v = (r : EReal)) (h0 : 0 ≤ v) :
    ∃ r : ℝ, invStd g v = (r : EReal) := by
  obtain ⟨rg, rfl⟩ := hg
  obtain ⟨rv, rfl⟩ := hv
  obtain ⟨e, he, hw⟩ := eps_pos
  have hrv : 0 ≤ rv := EReal.coe_nonneg.mp h0
  have hpos : 0 < rv + e := by linarith
  unfold invStd
  rw [hw, ← EReal.coe_add, Ideal.rsqrt_coe, if_neg (not_lt.mpr hpos.le), if_neg hpos.ne', ← EReal.coe_mul]
  exact ⟨_, rfl⟩

/-- The layer, index by index. -/
def layer (x0 : (⟨2, ![4000000, 10]⟩ : Shape).Idx → EReal) (x1 : (⟨2, ![10, 10]⟩ : Shape).Idx → EReal)
    (x2 : (⟨2, ![1, 10]⟩ : Shape).Idx → EReal) (x3 x4 x5 x6 : (⟨1, ![10]⟩ : Shape).Idx → EReal) :
    (⟨2, ![4000000, 10]⟩ : Shape).Idx → EReal := fun i =>
  ((∑ k : Fin 10, x0 (ix2 (i 0) k) * x1 (ix2 k (i 1))) + x2 (ix2 0 (i 1))) * invStd (x3 (ix1 (i 1))) (x6 (ix1 (i 1)))
    + (x4 (ix1 (i 1)) - x5 (ix1 (i 1)) * invStd (x3 (ix1 (i 1))) (x6 (ix1 (i 1))))

/-- The folded form is the layer: entries of x, w and the bias real, the scale real; the shift is anything. -/
theorem folded_eq (x w : Fin 10 → EReal) (b s sh : EReal) (hx : ∀ k, ∃ r : ℝ, x k = (r : EReal))
    (hw : ∀ k, ∃ r : ℝ, w k = (r : EReal)) (hb : ∃ r : ℝ, b = (r : EReal)) (hs : ∃ r : ℝ, s = (r : EReal)) :
    (∑ k : Fin 10, x k * (1 * (w k * s))) + (b * s + sh) = ((∑ k : Fin 10, x k * w k) + b) * s + sh := by
  choose rx hrx using hx
  choose rw' hrw using hw
  obtain ⟨rb, rfl⟩ := hb
  obtain ⟨rs, rfl⟩ := hs
  simp only [hrx, hrw, one_mul]
  exact Cert.Law.scale_fold Finset.univ rx rw' rb rs sh

end Cert.Spec

end
-- ==== Proof.HostRead.lean ====
/-
  The three operands of the matrix kernel, read at an index (at the ideal instance).

  A column c of the block-diagonal weight, or of the repeated bias, is c = 10 * g + j: slot g of the 64 packed samples,
  output feature j. A row k of the block-diagonal weight is k = 10 * g' + i likewise. Then

    weightBig[10 g' + i, 10 g + j] = (1 if g' = g else 0) * (w[i, j] * s[j]),
    biasBig[0, 10 g + j]           = bias[0, j] * s[j] + (beta[j] - mean[j] * s[j]),
    packed[r, k] = x[b, i]   whenever r * 640 + k = b * 10 + i with b a row of the unpadded batch

  (the packed batch is the zero-padded batch re-laid row-major, so equal row-major positions hold equal entries).
-/
import proofs.«173768_j87522843559166_2_alg».proof.Proof.HostPrefix
import proofs.«173768_j87522843559166_2_alg».proof.Proof.Spec
import Idealize.ShloMosaic.Lib.Pipeline.Value
import Idealize.ShloMosaic.Lib.ValueIdx
import Idealize.ShloMosaic.Lib.KernelVsHost
import Idealize.ShloMosaic.Lib.IdealHost

set_option maxRecDepth 16384

noncomputable section

open Idealize.ShloMosaic Idealize.ShloMosaic.ValueIdx

namespace Cert.KernelIdeal.Hand

open Cert.KernelIdeal Cert.KernelIdeal.Facts₀ Cert.KernelIdeal.Facts Cert.Spec

/-- The scale at feature j. -/
theorem scale_apply (x3 x6 : FVec Ideal S10 .f32) (j : Fin 10) :
    scale x3 x6 (ix1 j) = invStd (x3 (ix1 j)) (x6 (ix1 j)) := rfl

/-- The shift at feature j. -/
theorem shift_apply (x3 x4 x5 x6 : FVec Ideal S10 .f32) (j : Fin 10) :
    shift x3 x4 x5 x6 (ix1 j) = x4 (ix1 j) - x5 (ix1 j) * invStd (x3 (ix1 j)) (x6 (ix1 j)) := rfl

/-- The folded weight at (i, j). -/
theorem weight2_apply (x1 : FVec Ideal S10x10 .f32) (x3 x6 : FVec Ideal S10 .f32) (i j : Fin 10) :
    weight2 x1 x3 x6 (ix2 i j) = x1 (ix2 i j) * invStd (x3 (ix1 j)) (x6 (ix1 j)) := by
  unfold weight2
  rw [mulf_apply]
  refine congrArg (x1 (ix2 i j) * ·) ?_
  refine (broadcastInDim_apply _ _ _ (ix2 i j) (ix2 0 j) (fun a => match a with
    | ⟨0, _⟩ => rfl
    | ⟨1, _⟩ => rfl)).trans ?_
  refine (broadcastInDim_apply _ _ _ (ix2 0 j) (ix1 j) (fun a => match a with
    | ⟨0, _⟩ => rfl)).trans ?_
  exact scale_apply x3 x6 j

/-- The folded bias at (0, j). -/
theorem bias2_apply (x2 : FVec Ideal S1x10 .f32) (x3 x4 x5 x6 : FVec Ideal S10 .f32) (j : Fin 10) :
    bias2 x2 x3 x4 x5 x6 (ix2 0 j) = x2 (ix2 0 j) * invStd (x3 (ix1 j)) (x6 (ix1 j))
      + (x4 (ix1 j) - x5 (ix1 j) * invStd (x3 (ix1 j)) (x6 (ix1 j))) := by
  unfold bias2
  rw [addf_apply, mulf_apply]
  have e1 : broadcastInDim S1x10 ![1] bcast_S10_S1x10_1 (scale x3 x6) (ix2 0 j) = invStd (x3 (ix1 j)) (x6 (ix1 j)) :=
    (broadcastInDim_apply _ _ _ (ix2 0 j) (ix1 j) (fun a => match a with
      | ⟨0, _⟩ => rfl)).trans (scale_apply x3 x6 j)
  have e2 : broadcastInDim S1x10 ![1] bcast_S10_S1x10_1 (shift x3 x4 x5 x6) (ix2 0 j)
      = x4 (ix1 j) - x5 (ix1 j) * invStd (x3 (ix1 j)) (x6 (ix1 j)) :=
    (broadcastInDim_apply _ _ _ (ix2 0 j) (ix1 j) (fun a => match a with
      | ⟨0, _⟩ => rfl)).trans (shift_apply x3 x4 x5 x6 j)
  rw [e1, e2]

/-- Row number against column number, as 32-bit words, over the 64 x 64 square. -/
theorem eye_word : ∀ g' g : Fin 64,
    IntOp.cmpi .eq (IntOp.addi (BitVec.ofNat 32 g'.val) 0#32) (BitVec.ofNat 32 g.val) = BitVec.ofBool (decide (g' = g)) := by
  decide +kernel

/-- The identity matrix on its diagonal. -/
theorem eye_diag (g : Fin 64) : (eye (F := Ideal)) (ix2 g g) = 1 := by
  have h : (eye (F := Ideal)) (ix2 g g) = (((BitVec.ofBool (decide (g = g))).toNat : ℝ) : EReal) := by
    rw [← eye_word g g]; rfl
  rw [h, decide_eq_true rfl]
  simp

/-- The identity matrix off its diagonal. -/
theorem eye_off (g' g : Fin 64) (hne : g' ≠ g) : (eye (F := Ideal)) (ix2 g' g) = 0 := by
  have h : (eye (F := Ideal)) (ix2 g' g) = (((BitVec.ofBool (decide (g' = g))).toNat : ℝ) : EReal) := by
    rw [← eye_word g' g]; rfl
  rw [h, decide_eq_false hne]
  simp

/-- The Kronecker product at (g', i, g, j). -/
theorem kron4_apply (x1 : FVec Ideal S10x10 .f32) (x3 x6 : FVec Ideal S10 .f32) (g' : Fin 64) (i : Fin 10) (g : Fin 64) (j : Fin 10) :
    kron4 x1 x3 x6 (ix4 g' i g j) = (eye (F := Ideal)) (ix2 g' g) * (x1 (ix2 i j) * invStd (x3 (ix1 j)) (x6 (ix1 j))) := by
  unfold kron4
  rw [mulf_apply]
  have e1 : broadcastInDim S64x10x64x10 ![0, 1, 2, 3] bcast_S64x1x64x1_S64x10x64x10_0_1_2_3
      (broadcastInDim S64x1x64x1 ![0, 2] bcast_S64x64_S64x1x64x1_0_2 (eye (F := Ideal))) (ix4 g' i g j) = (eye (F := Ideal)) (ix2 g' g) :=
    (broadcastInDim_apply _ _ _ (ix4 g' i g j) (ix4 g' 0 g 0) (fun a => match a with
      | ⟨0, _⟩ => rfl
      | ⟨1, _⟩ => rfl
      | ⟨2, _⟩ => rfl
      | ⟨3, _⟩ => rfl)).trans
    (broadcastInDim_apply _ _ _ (ix4 g' 0 g 0) (ix2 g' g) (fun a => match a with
      | ⟨0, _⟩ => rfl
      | ⟨1, _⟩ => rfl))
  have e2 : broadcastInDim S64x10x64x10 ![0, 1, 2, 3] bcast_S1x10x1x10_S64x10x64x10_0_1_2_3
      (broadcastInDim S1x10x1x10 ![1, 3] bcast_S10x10_S1x10x1x10_1_3 (weight2 x1 x3 x6)) (ix4 g' i g j) = weight2 x1 x3 x6 (ix2 i j) :=
    (broadcastInDim_apply _ _ _ (ix4 g' i g j) (ix4 0 i 0 j) (fun a => match a with
      | ⟨0, _⟩ => rfl
      | ⟨1, _⟩ => rfl
      | ⟨2, _⟩ => rfl
      | ⟨3, _⟩ => rfl)).trans
    (broadcastInDim_apply _ _ _ (ix4 0 i 0 j) (ix2 i j) (fun a => match a with
      | ⟨0, _⟩ => rfl
      | ⟨1, _⟩ => rfl))
  rw [e1, e2, weight2_apply]

/-- The block-diagonal weight at row 10 g' + i, column 10 g + j. -/
theorem weightBig_apply (x1 : FVec Ideal S10x10 .f32) (x3 x6 : FVec Ideal S10 .f32) (k c : Fin 640)
    (g' : Fin 64) (i : Fin 10) (g : Fin 64) (j : Fin 10) (hk : k.val = 10 * g'.val + i.val) (hc : c.val = 10 * g.val + j.val) :
    weightBig x1 x3 x6 (ix2 k c) = (eye (F := Ideal)) (ix2 g' g) * (x1 (ix2 i j) * invStd (x3 (ix1 j)) (x6 (ix1 j))) := by
  unfold weightBig
  rw [truncf_apply]
  refine (shapeCast_apply _ _ (ix2 k c) (ix4 g' i g j) ?_).trans (kron4_apply x1 x3 x6 g' i g j)
  rw [Shape.rowMajor_val_two, Shape.rowMajor_val_four]
  show ((g'.val * 10 + i.val) * 64 + g.val) * 10 + j.val = k.val * 640 + c.val
  omega

/-- The repeated bias at column 10 g + j. -/
theorem biasBig_apply (x2 : FVec Ideal S1x10 .f32) (x3 x4 x5 x6 : FVec Ideal S10 .f32) (c : Fin 640) (g : Fin 64) (j : Fin 10)
    (hc : c.val = 10 * g.val + j.val) :
    biasBig x2 x3 x4 x5 x6 (ix2 0 c) = x2 (ix2 0 j) * invStd (x3 (ix1 j)) (x6 (ix1 j))
      + (x4 (ix1 j) - x5 (ix1 j) * invStd (x3 (ix1 j)) (x6 (ix1 j))) := by
  unfold biasBig
  refine (shapeCast_apply _ _ (ix2 0 c) (ix4 0 0 g j) ?_).trans ?_
  · rw [Shape.rowMajor_val_two, Shape.rowMajor_val_four]
    show ((0 * 1 + 0) * 64 + g.val) * 10 + j.val = 0 * 640 + c.val
    omega
  refine (broadcastInDim_apply _ _ _ (ix4 0 0 g j) (ix4 0 0 0 j) (fun a => match a with
      | ⟨0, _⟩ => rfl
      | ⟨1, _⟩ => rfl
      | ⟨2, _⟩ => rfl
      | ⟨3, _⟩ => rfl)).trans ?_
  refine (shapeCast_apply _ _ (ix4 0 0 0 j) (ix2 0 j) ?_).trans (bias2_apply x2 x3 x4 x5 x6 j)
  rw [Shape.rowMajor_val_two, Shape.rowMajor_val_four]
  show 0 * 10 + j.val = ((0 * 1 + 0) * 1 + 0) * 10 + j.val
  omega

/-- The packed batch at a row-major position that lies in the unpadded batch. -/
theorem packed_apply (x0 : FVec Ideal S4000000x10 .f32) (r : Fin 63488) (k : Fin 640) (b : Fin 4000000) (i : Fin 10)
    (h : r.val * 640 + k.val = b.val * 10 + i.val) :
    packed x0 (ix2 r k) = x0 (ix2 b i) := by
  unfold packed
  have hb : b.val < 4063232 := by have := b.isLt; omega
  refine (shapeCast_apply _ _ (ix2 r k) (ix2 ⟨b.val, hb⟩ i) ?_).trans ?_
  · rw [Shape.rowMajor_val_two, Shape.rowMajor_val_two]
    show b.val * 10 + i.val = r.val * 640 + k.val
    omega
  refine pad_apply_of_inside _ _ _ _ _ _ _ (ix2 ⟨b.val, hb⟩ i) (ix2 b i) (fun a => match a with
    | ⟨0, _⟩ => by show b.val = 0 + b.val * (0 + 1); omega
    | ⟨1, _⟩ => by show i.val = 0 + i.val * (0 + 1); omega)

end Cert.KernelIdeal.Hand

end
-- ==== Proof.Finite.lean ====
/-
  What the precondition says of the argument arrays, read back from its printed form: every entry of every array is a
  real number (its absolute value is below plus infinity), and no variance is negative. The precondition is a
  conjunction of eight all-reductions of elementwise comparisons; each all-reduction that is true is true at every index.
-/
import proofs.«173768_j87522843559166_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

open Idealize.ShloMosaic

namespace Cert.Pre_finite_inputs.Hand

open Cert.Pre_finite_inputs Cert.Pre_finite_inputs.Facts

/-- The shape of a scalar has one index. -/
instance : Subsingleton S_.Idx := ⟨fun a b => funext fun d => d.elim0⟩

/-- A decided proposition whose truth bit is one holds. -/
theorem of_ofBool_decide {p : Prop} [Decidable p] (h : BitVec.ofBool (decide p) = 1#1) : p := by
  by_contra hp
  rw [decide_eq_false hp] at h
  exact absurd h (by decide)

/-- The word of plus infinity denotes the top element. -/
theorem inf_word : Ideal.ofBits .f32 0x7F800000#32 = (⊤ : EReal) := by
  simp [Ideal.ofBits, Ideal.ieee]

/-- An extended real whose absolute value is below plus infinity is a real number. -/
theorem real_of_abs_lt (x : EReal) (h : Ideal.cmp .olt (max x (-x)) (Ideal.ofBits .f32 0x7F800000#32) = 1#1) :
    ∃ r : ℝ, x = (r : EReal) := by
  rw [inf_word] at h
  have hlt : max x (-x) < ⊤ := of_ofBool_decide h
  induction x using EReal.rec with
  | bot => simp at hlt
  | coe r => exact ⟨r, rfl⟩
  | top => simp at hlt

/-- An extended real that compares at least the zero word is not negative. -/
theorem nonneg_of_ge (x : EReal) (h : Ideal.cmp .oge x (Ideal.ofBits .f32 0x00000000#32) = 1#1) : 0 ≤ x := by
  rw [Ideal.ofBits_zero_f32] at h
  exact of_ofBool_decide h

/-- What the precondition gives of the seven argument arrays. -/
structure Dom (x0 : FVec Ideal S4000000x10 .f32) (x1 : FVec Ideal S10x10 .f32) (x2 : FVec Ideal S1x10 .f32)
    (x3 x4 x5 x6 : FVec Ideal S10 .f32) : Prop where
  real0 : ∀ i, ∃ r : ℝ, x0 i = (r : EReal)
  real1 : ∀ i, ∃ r : ℝ, x1 i = (r : EReal)
  real2 : ∀ i, ∃ r : ℝ, x2 i = (r : EReal)
  real3 : ∀ i, ∃ r : ℝ, x3 i = (r : EReal)
  real4 : ∀ i, ∃ r : ℝ, x4 i = (r : EReal)
  real5 : ∀ i, ∃ r : ℝ, x5 i = (r : EReal)
  real6 : ∀ i, ∃ r : ℝ, x6 i = (r : EReal)
  nonneg6 : ∀ i, (0 : EReal) ≤ x6 i

/-- The printed precondition, all ones, gives the domain. -/
theorem dom_of_pre (x0 : FVec Ideal S4000000x10 .f32) (x1 : FVec Ideal S10x10 .f32) (x2 : FVec Ideal S1x10 .f32)
    (x3 x4 x5 x6 : FVec Ideal S10 .f32) (h : fn (F := Ideal) x0 x1 x2 x3 x4 x5 x6 = fun _ => 1#1) :
    Dom x0 x1 x2 x3 x4 x5 x6 := by
  have h0 := congrFun h ValueIdx.ix0
  dsimp only [fn, fn_part1, fn_part2] at h0
  simp only [andi, IntOp.andi_eq_one] at h0
  obtain ⟨⟨⟨⟨⟨⟨⟨a0, a1⟩, a2⟩, a3⟩, a4⟩, a5⟩, a6⟩, a7⟩ := h0
  exact
    { real0 := fun i => real_of_abs_lt (x0 i) (Host.reduce_andi_all _ _ _ _ _ a0 i)
      real1 := fun i => real_of_abs_lt (x1 i) (Host.reduce_andi_all _ _ _ _ _ a1 i)
      real2 := fun i => real_of_abs_lt (x2 i) (Host.reduce_andi_all _ _ _ _ _ a2 i)
      real3 := fun i => real_of_abs_lt (x3 i) (Host.reduce_andi_all _ _ _ _ _ a3 i)
      real4 := fun i => real_of_abs_lt (x4 i) (Host.reduce_andi_all _ _ _ _ _ a4 i)
      real5 := fun i => real_of_abs_lt (x5 i) (Host.reduce_andi_all _ _ _ _ _ a5 i)
      real6 := fun i => real_of_abs_lt (x6 i) (Host.reduce_andi_all _ _ _ _ _ a6 i)
      nonneg6 := fun i => nonneg_of_ge (x6 i) (Host.reduce_andi_all _ _ _ _ _ a7 i) }

end Cert.Pre_finite_inputs.Hand

end
-- ==== Proof.Value.lean ====
/-
  The kernel's result is the layer.

  After the region the host re-lays the 63488 x 640 result row-major as 4063232 rows of 10 and keeps the first 4000000
  rows, so result[b, j] is the region's array at row b / 64, column 10 * (b mod 64) + j. There the region's array holds
  the sum over the 640 columns k of packed[b / 64, k] * weightBig[k, 10 * (b mod 64) + j] plus the bias. The weight is
  block diagonal: among the 64 tiles of 10 columns only tile b mod 64 contributes (elsewhere the weight is 0 times
  something, which is 0, and anything times 0 is 0), and on that tile packed[b / 64, 10 * (b mod 64) + i] = x[b, i] because
  row b is a row of the unpadded batch. What is left is the folded form of the layer, which is the layer on the domain.
-/
import proofs.«173768_j87522843559166_2_alg».proof.Proof.Blocks
import proofs.«173768_j87522843559166_2_alg».proof.Proof.HostRead
import proofs.«173768_j87522843559166_2_alg».proof.Proof.Finite
import Idealize.ShloMosaic.Lib.StableHlo.Run

set_option maxRecDepth 16384

noncomputable section

open scoped BigOperators
open Idealize.ShloMosaic Idealize.ShloMosaic.TcCoe Idealize.SL.Sem Idealize.ShloMosaic.ValueIdx Idealize.ShloMosaic.StableHlo

namespace Cert.KernelIdeal.Hand

open Cert.KernelIdeal Cert.KernelIdeal.Facts₀ Cert.KernelIdeal.Facts Cert.Spec

/-- The host lines after the region: re-lay as rows of 10, keep the first 4000000 rows. -/
def unpack (R : S63488x640.Idx → EReal) : S4000000x10.Idx → EReal :=
  extractStridedSlice S4000000x10 ![0, 0] (shapeCast S4063232x10 R shapeCasts_S63488x640_S4063232x10)
    slices_S4063232x10_S4000000x10_0_0

/-- Entry (b, j) of the unpacked array is the entry of the packed one at the same row-major position. -/
theorem unpack_apply (R : S63488x640.Idx → EReal) (b : Fin 4000000) (j : Fin 10) (r : Fin 63488) (cc : Fin 640)
    (h : r.val * 640 + cc.val = b.val * 10 + j.val) : unpack R (ix2 b j) = R (ix2 r cc) := by
  unfold unpack
  have hb : b.val < 4063232 := by have := b.isLt; omega
  refine (extractStridedSlice_apply _ _ _ (ix2 b j) (ix2 ⟨b.val, hb⟩ j) (fun a => match a with
    | ⟨0, _⟩ => by show b.val = 0 + b.val; omega
    | ⟨1, _⟩ => by show j.val = 0 + j.val; omega)).trans ?_
  refine shapeCast_apply _ _ (ix2 ⟨b.val, hb⟩ j) (ix2 r cc) ?_
  rw [Shape.rowMajor_val_two, Shape.rowMajor_val_two]
  show r.val * 640 + cc.val = b.val * 10 + j.val
  exact h

/-- The unpacked product of the packed batch with the block-diagonal weight, plus the repeated bias, is the layer, on
    the domain the precondition gives. -/
theorem unpack_region_eq_layer (x0 : FVec Ideal S4000000x10 .f32) (x1 : FVec Ideal S10x10 .f32) (x2 : FVec Ideal S1x10 .f32)
    (x3 x4 x5 x6 : FVec Ideal S10 .f32) (hd : Cert.Pre_finite_inputs.Hand.Dom x0 x1 x2 x3 x4 x5 x6) :
    unpack (regionOut (packed x0) (weightBig x1 x3 x6) (biasBig x2 x3 x4 x5 x6)) = layer x0 x1 x2 x3 x4 x5 x6 := by
  funext idx
  obtain ⟨b, j, rfl⟩ : ∃ (b : Fin 4000000) (j : Fin 10), idx = ix2 b j := ⟨idx 0, idx 1, eq_ix2 idx⟩
  have hb : b.val < 4000000 := b.isLt
  have hj : j.val < 10 := j.isLt
  have hr : b.val / 64 < 63488 := by omega
  have hg : b.val % 64 < 64 := Nat.mod_lt _ (by decide)
  have hcc : 10 * (b.val % 64) + j.val < 640 := by omega
  rw [unpack_apply _ b j ⟨b.val / 64, hr⟩ ⟨10 * (b.val % 64) + j.val, hcc⟩ (by show b.val / 64 * 640 + (10 * (b.val % 64) + j.val) = b.val * 10 + j.val; omega)]
  show (∑ k : Fin 640, packed x0 (ix2 ⟨b.val / 64, hr⟩ k) * weightBig x1 x3 x6 (ix2 k ⟨10 * (b.val % 64) + j.val, hcc⟩))
      + biasBig x2 x3 x4 x5 x6 (ix2 0 ⟨10 * (b.val % 64) + j.val, hcc⟩) = _
  -- only the tile of the sample's slot contributes
  rw [Cert.Law.sum_one_tile (T := 64) (R := 10) (N := 640) rfl _ ⟨b.val % 64, hg⟩ (fun t i ht => by
    rw [weightBig_apply x1 x3 x6 _ ⟨10 * (b.val % 64) + j.val, hcc⟩ t i ⟨b.val % 64, hg⟩ j rfl rfl, eye_off t _ ht, zero_mul, mul_zero])]
  rw [biasBig_apply x2 x3 x4 x5 x6 ⟨10 * (b.val % 64) + j.val, hcc⟩ ⟨b.val % 64, hg⟩ j rfl]
  have hterm : ∀ i : Fin 10,
      packed x0 (ix2 ⟨b.val / 64, hr⟩ ⟨10 * (b.val % 64) + i.val, Cert.LibSums.tile_lt (T := 64) (R := 10) (N := 640) rfl ⟨b.val % 64, hg⟩ i⟩)
        * weightBig x1 x3 x6 (ix2 ⟨10 * (b.val % 64) + i.val, Cert.LibSums.tile_lt (T := 64) (R := 10) (N := 640) rfl ⟨b.val % 64, hg⟩ i⟩ ⟨10 * (b.val % 64) + j.val, hcc⟩)
      = x0 (ix2 b i) * (1 * (x1 (ix2 i j) * invStd (x3 (ix1 j)) (x6 (ix1 j)))) := fun i => by
    rw [packed_apply x0 _ _ b i (by show b.val / 64 * 640 + (10 * (b.val % 64) + i.val) = b.val * 10 + i.val; omega),
      weightBig_apply x1 x3 x6 _ ⟨10 * (b.val % 64) + j.val, hcc⟩ ⟨b.val % 64, hg⟩ i ⟨b.val % 64, hg⟩ j rfl rfl, eye_diag]
  simp only [hterm]
  exact folded_eq (fun k => x0 (ix2 b k)) (fun k => x1 (ix2 k j)) (x2 (ix2 0 j)) (invStd (x3 (ix1 j)) (x6 (ix1 j)))
    (x4 (ix1 j) - x5 (ix1 j) * invStd (x3 (ix1 j)) (x6 (ix1 j))) (fun k => hd.real0 _) (fun k => hd.real1 _) (hd.real2 _)
    (invStd_real _ _ (hd.real3 _) (hd.real6 _) (hd.nonneg6 _))

variable (m : (ℓ : Loc nD τ sig) → Buf (Elt Ideal) ℓ)

/-- The result buffer after the host lines that follow the region. -/
theorem tail_eq (c : Dev nD) :
    (Pipeline.afterTail₀ cfgs (Gen.dats m) 0 (Gen.V0 m) [Gen.hostOps1] c main_v28 : S4000000x10.Idx → EReal)
      = unpack (regionOut (Gen.V m c main_v25) (Gen.V m c main_v20) (Gen.V m c main_v23)) := by
  have e : Pipeline.withArrays spec0 c (Gen.V0 m c) (fun w => (Gen.dats m 0 c).arrAt w cfg0.N) (Proc.devRef .tc (Pipeline.arrRef spec0 3))
      = regionOut (Gen.V m c main_v25) (Gen.V m c main_v20) (Gen.V m c main_v23) :=
    (Pipeline.withArrays_arr spec0 Gen.launch0.win.arr_inj c _ _ 3).trans (final m c)
  unfold Pipeline.afterTail₀
  show StableHlo.after Gen.hostOps1 _ (Proc.devRef .tc main_v28) = _
  after_results
  exact congrArg unpack e

end Cert.KernelIdeal.Hand

end
-- ==== Proof.RefRead.lean ====
/-
  The reference's result, read one operation at a time (the generated read-at-an-index lemmas), is the layer:
  its matrix product at (b, j) is the sum over k of x[b, k] * w[k, j]; the bias, the scale and the shift are
  broadcast along the batch, so at (b, j) they are read at column j.
-/
import proofs.«173768_j87522843559166_2_alg».proof.Proof.Gen.ReferenceIdeal.Read
import proofs.«173768_j87522843559166_2_alg».proof.Proof.Spec

noncomputable section

open Idealize.ShloMosaic Idealize.ShloMosaic.ValueIdx

namespace Cert.ReferenceIdeal.Hand

open Cert.ReferenceIdeal Cert.ReferenceIdeal.Read Cert.Spec

/-- The reference's result is the layer of its arguments. -/
theorem ref_eq_layer (x0 : (⟨S4000000x10, .f32⟩ : BufTy).Contents (Elt Ideal)) (x1 : (⟨S10x10, .f32⟩ : BufTy).Contents (Elt Ideal))
    (x2 : (⟨S1x10, .f32⟩ : BufTy).Contents (Elt Ideal)) (x3 x4 x5 x6 : (⟨S10, .f32⟩ : BufTy).Contents (Elt Ideal)) :
    val_main_v14 (F := Ideal) x0 x1 x2 x3 x4 x5 x6 = layer x0 x1 x2 x3 x4 x5 x6 := by
  funext i
  have el : ∀ k : Fin 10, lidx_main_v0 i k = ix2 (i 0) k := fun k => funext fun a => Fin.ext (by
    match a with
    | ⟨0, _⟩ => rfl
    | ⟨1, _⟩ => rfl)
  have er : ∀ k : Fin 10, ridx_main_v0 i k = ix2 k (i 1) := fun k => funext fun a => Fin.ext (by
    match a with
    | ⟨0, _⟩ => rfl
    | ⟨1, _⟩ => rfl)
  have e1 : idx_main_v1 i = ix2 0 (i 1) := funext fun a => Fin.ext (by
    match a with
    | ⟨0, _⟩ => rfl
    | ⟨1, _⟩ => rfl)
  have e8 : idx_main_v7 (idx_main_v8 i) = ix1 (i 1) := funext fun a => Fin.ext (by
    match a with
    | ⟨0, _⟩ => rfl)
  have e13 : idx_main_v12 (idx_main_v13 i) = ix1 (i 1) := funext fun a => Fin.ext (by
    match a with
    | ⟨0, _⟩ => rfl)
  rw [val_main_v14_apply, val_main_v9_apply, val_main_v2_apply, val_main_v0_apply, val_main_v1_apply, val_main_v8_apply,
    val_main_v7_apply, val_main_v13_apply, val_main_v12_apply]
  simp only [el, er, e1, e8, e13]
  rfl

end Cert.ReferenceIdeal.Hand

end
-- ==== Proof.lean ====
/-
  A dense layer on 4000000 samples of 10 features followed by batch normalisation with the moving statistics,
      out[b, j] = (sum_k x[b, k] * w[k, j] + bias[0, j]) * s[j] + (beta[j] - mean[j] * s[j]),   s[j] = gamma[j] * rsqrt (var[j] + eps),
  computed by the reference as written, and by the kernel with s folded into the weight and the bias on the host
  (w2[k, j] = w[k, j] * s[j], b2[0, j] = bias[0, j] * s[j] + (beta[j] - mean[j] * s[j])), 64 samples packed into one row of
  640 lanes, and ONE matrix product of the packed rows with the block-diagonal weight (the Kronecker product of the 64 x 64
  identity with w2) over a grid of 31 row tiles.

  On the extended reals the two agree when multiplication by s[j] distributes over the sum, which it does when the
  entries and s[j] are real numbers: the entries by the precondition (every input finite), and s[j] because the variances
  are, in addition, not negative, so that var[j] + eps is positive (at var[j] = -eps the inverse square root is plus
  infinity, the scale is infinite, and the two sides differ: top + bot against one signed infinity).

  The modules: Law (the two facts on sums), Spec (the layer as one function; the folded form equals it), Finite (the
  precondition read back), RefRead (the reference is the layer), HostPrefix and HostRead (the kernel's three operands as the
  host computes them, and at an index), Body (what the kernel body stores, at an index), Blocks (the region's result
  array), Value (the host lines after the region, and the kernel's result against the layer). Below: the five claims.
-/
import proofs.«173768_j87522843559166_2_alg».proof.Defs
import proofs.«173768_j87522843559166_2_alg».proof.Proof.Gen.Kernel
import proofs.«173768_j87522843559166_2_alg».proof.Proof.Gen.Kernel.Skeleton
import proofs.«173768_j87522843559166_2_alg».proof.Proof.Gen.Kernel.Launch
import proofs.«173768_j87522843559166_2_alg».proof.Proof.Gen.Kernel.Points
import proofs.«173768_j87522843559166_2_alg».proof.Proof.Gen.Kernel.Frame
import proofs.«173768_j87522843559166_2_alg».proof.Proof.Gen.KernelIdeal
import proofs.«173768_j87522843559166_2_alg».proof.Proof.Gen.KernelIdeal.Skeleton
import proofs.«173768_j87522843559166_2_alg».proof.Proof.Gen.KernelIdeal.Launch
import proofs.«173768_j87522843559166_2_alg».proof.Proof.Gen.KernelIdeal.Points
import proofs.«173768_j87522843559166_2_alg».proof.Proof.Gen.KernelIdeal.Frame
import proofs.«173768_j87522843559166_2_alg».proof.Proof.Gen.ReferenceIdeal
import proofs.«173768_j87522843559166_2_alg».proof.Proof.Gen.Pre_finite_inputs
import proofs.«173768_j87522843559166_2_alg».proof.Proof.Gen.ReferenceIdeal.Run
import proofs.«173768_j87522843559166_2_alg».proof.Proof.Gen.ReferenceIdeal.Read
import proofs.«173768_j87522843559166_2_alg».proof.Proof.Value
import proofs.«173768_j87522843559166_2_alg».proof.Proof.RefRead
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the layer of the arguments in their result. -/
theorem algebraic : Cert.algebraic_KernelIdeal_ReferenceIdeal := by
  intro m ρ m' ρ' hpre hagree
  refine ⟨fun c => Cert.Spec.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · -- the kernel: the frame run's post, read at the result and at the arguments
    refine (θ_run Cert.KernelIdeal.defs _ _).mono (fun r h c => ?_) (Cert.KernelIdeal.Gen.run_main m ρ)
    have hd := Cert.Pre_finite_inputs.Hand.dom_of_pre _ _ _ _ _ _ _ (hpre c)
    refine ⟨?_,
      ((h c).2 Cert.KernelIdeal.main_arg0 (Pipeline.mem_restRefs_of Cert.KernelIdeal.main_arg0 (by decide) (by decide))).trans (Cert.KernelIdeal.Gen.W_main_arg0 m (Cert.KernelIdeal.Gen.dats m) c),
      ((h c).2 Cert.KernelIdeal.main_arg1 (Pipeline.mem_restRefs_of Cert.KernelIdeal.main_arg1 (by decide) (by decide))).trans (Cert.KernelIdeal.Gen.W_main_arg1 m (Cert.KernelIdeal.Gen.dats m) c),
      ((h c).2 Cert.KernelIdeal.main_arg2 (Pipeline.mem_restRefs_of Cert.KernelIdeal.main_arg2 (by decide) (by decide))).trans (Cert.KernelIdeal.Gen.W_main_arg2 m (Cert.KernelIdeal.Gen.dats m) c),
      ((h c).2 Cert.KernelIdeal.main_arg3 (Pipeline.mem_restRefs_of Cert.KernelIdeal.main_arg3 (by decide) (by decide))).trans (Cert.KernelIdeal.Gen.W_main_arg3 m (Cert.KernelIdeal.Gen.dats m) c),
      ((h c).2 Cert.KernelIdeal.main_arg4 (Pipeline.mem_restRefs_of Cert.KernelIdeal.main_arg4 (by decide) (by decide))).trans (Cert.KernelIdeal.Gen.W_main_arg4 m (Cert.KernelIdeal.Gen.dats m) c),
      ((h c).2 Cert.KernelIdeal.main_arg5 (Pipeline.mem_restRefs_of Cert.KernelIdeal.main_arg5 (by decide) (by decide))).trans (Cert.KernelIdeal.Gen.W_main_arg5 m (Cert.KernelIdeal.Gen.dats m) c),
      ((h c).2 Cert.KernelIdeal.main_arg6 (Pipeline.mem_restRefs_of Cert.KernelIdeal.main_arg6 (by decide) (by decide))).trans (Cert.KernelIdeal.Gen.W_main_arg6 m (Cert.KernelIdeal.Gen.dats m) c)⟩
    refine ((h c).2 Cert.KernelIdeal.main_v28 (Pipeline.mem_restRefs_of Cert.KernelIdeal.main_v28 (by decide) (by decide))).trans ?_
    refine (Cert.KernelIdeal.Hand.tail_eq m c).trans ?_
    rw [Cert.KernelIdeal.Hand.V_packed, Cert.KernelIdeal.Hand.V_weightBig, Cert.KernelIdeal.Hand.V_biasBig]
    exact Cert.KernelIdeal.Hand.unpack_region_eq_layer _ _ _ _ _ _ _ hd
  · -- the reference: its generated run, its result the layer
    refine (θ_run Cert.ReferenceIdeal.defs _ _).mono (fun _ h c => ⟨?_, (h c).2⟩) (Cert.ReferenceIdeal.Value.run (F := Ideal) m' ρ')
    refine (h c).1.trans ((Cert.ReferenceIdeal.Read.val_main_v14_eq _ _ _ _ _ _ _).trans
      ((Cert.ReferenceIdeal.Hand.ref_eq_layer _ _ _ _ _ _ _).trans ?_))
    rw [(hagree c).1, (hagree c).2.1, (hagree c).2.2.1, (hagree c).2.2.2.1, (hagree c).2.2.2.2.1, (hagree c).2.2.2.2.2.1,
      (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
